-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000 : Shape := ⟨1, ![100000]⟩
abbrev S600000 : Shape := ⟨1, ![600000]⟩
abbrev S100000x128 : Shape := ⟨2, ![100000, 128]⟩
abbrev S4x128 : Shape := ⟨2, ![4, 128]⟩
abbrev S128x128 : Shape := ⟨2, ![128, 128]⟩
abbrev S128 : Shape := ⟨1, ![128]⟩
abbrev S_ : Shape := ⟨0, ![]⟩

class Facts : Prop where
  bcast_S_S600000 : S_.BroadcastsInDim S600000 (![] : Fin 0 → Fin S600000.rank)
  reducesTo_S600000_S_d0 : S600000.ReducesTo [0] S_
  h_S_ : 0 < S_.numel
  bcast_S_S100000x128 : S_.BroadcastsInDim S100000x128 (![] : Fin 0 → Fin S100000x128.rank)
  reducesTo_S100000x128_S_d0_1 : S100000x128.ReducesTo [0, 1] S_
  bcast_S_S4x128 : S_.BroadcastsInDim S4x128 (![] : Fin 0 → Fin S4x128.rank)
  reducesTo_S4x128_S_d0_1 : S4x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg9 : FVec F S128x128 .f32) (main_arg10 : FVec F S128 .f32) (main_v13 : IVec S_ 1) (main_v16 : IVec S4x128 1) : IVec S_ 1 :=
  let main_c_5 : IVec S_ 1 := constantI S_ 1 1#1
  let main_v17 : IVec S_ 1 := (fun x v => Host.reduce IntOp.andi x v reducesTo_S4x128_S_d0_1 h_S_) main_v16 main_c_5
  let main_v18 : IVec S_ 1 := andi main_v13 main_v17
  let main_v19 : FVec F S128x128 .f32 := Host.absf main_arg9
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg10
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : IVec S100000 32) (main_arg1 : IVec S100000 32) (main_arg2 : IVec S100000 32) (main_arg3 : IVec S600000 32) (main_arg4 : IVec S600000 32) (main_arg5 : FVec F S600000 .f32) (main_arg6 : FVec F S100000x128 .f32) (main_arg7 : FVec F S100000x128 .f32) (main_arg8 : FVec F S4x128 .f32) (main_arg9 : FVec F S128x128 .f32) (main_arg10 : FVec F S128 .f32) : IVec S_ 1 :=
  let main_v0 : FVec F S600000 .f32 := Host.absf main_arg5
  let main_cst : FVec F S_ .f32 := constant S_ .f32 0x7F800000#32
  let main_v1 : FVec F S600000 .f32 := broadcastInDim S600000 ![] bcast_S_S600000 main_cst
  let main_v2 : IVec S600000 1 := cmpf .olt main_v0 main_v1
  let main_c : IVec S_ 1 := constantI S_ 1 1#1
  let main_v3 : IVec S_ 1 := (fun x v => Host.reduce IntOp.andi x v reducesTo_S600000_S_d0 h_S_) main_v2 main_c
  let main_v4 : FVec F S100000x128 .f32 := Host.absf main_arg6
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S100000x128 .f32 := Host.absf main_arg7
  let main_cst_2 : FVec F S_ .f32 := constant S_ .f32 0x7F800000#32
  let main_v10 : FVec F S100000x128 .f32 := broadcastInDim S100000x128 ![] bcast_S_S100000x128 main_cst_2
  let main_v11 : IVec S100000x128 1 := cmpf .olt main_v9 main_v10
  let main_c_3 : IVec S_ 1 := constantI S_ 1 1#1
  let main_v12 : IVec S_ 1 := (fun x v => Host.reduce IntOp.andi x v reducesTo_S100000x128_S_d0_1 h_S_) main_v11 main_c_3
  let main_v13 : IVec S_ 1 := andi main_v8 main_v12
  let main_v14 : FVec F S4x128 .f32 := Host.absf main_arg8
  let main_cst_4 : FVec F S_ .f32 := constant S_ .f32 0x7F800000#32
  let main_v15 : FVec F S4x128 .f32 := broadcastInDim S4x128 ![] bcast_S_S4x128 main_cst_4
  let main_v16 : IVec S4x128 1 := cmpf .olt main_v14 main_v15
  fn_part1 (F := F) main_arg9 main_arg10 main_v13 main_v16
-- ==== Kernel.lean ====
abbrev S100000 : Shape := ⟨1, ![100000]⟩
abbrev S600000 : Shape := ⟨1, ![600000]⟩
abbrev S100000x128 : Shape := ⟨2, ![100000, 128]⟩
abbrev S4x128 : Shape := ⟨2, ![4, 128]⟩
abbrev S128x128 : Shape := ⟨2, ![128, 128]⟩
abbrev S128 : Shape := ⟨1, ![128]⟩
abbrev S_ : Shape := ⟨0, ![]⟩
abbrev S100000x1 : Shape := ⟨2, ![100000, 1]⟩
abbrev S600000x1 : Shape := ⟨2, ![600000, 1]⟩
abbrev S600000x128 : Shape := ⟨2, ![600000, 128]⟩
abbrev S1x128 : Shape := ⟨2, ![1, 128]⟩
abbrev S10000x128 : Shape := ⟨2, ![10000, 128]⟩

abbrev nBuf : Space → Nat
  | .hbm => 62
  | .vmem => 6
  | .smem => 0
  | _ => 0

abbrev bufTy : (tb : Table) → Fin (tcTables nBuf tb) → BufTy
  | .hbm, ⟨0, _⟩ => ⟨S100000, .i32⟩
  | .hbm, ⟨1, _⟩ => ⟨S100000, .i32⟩
  | .hbm, ⟨2, _⟩ => ⟨S100000, .i32⟩
  | .hbm, ⟨3, _⟩ => ⟨S600000, .i32⟩
  | .hbm, ⟨4, _⟩ => ⟨S600000, .i32⟩
  | .hbm, ⟨5, _⟩ => ⟨S600000, .f32⟩
  | .hbm, ⟨6, _⟩ => ⟨S100000x128, .f32⟩
  | .hbm, ⟨7, _⟩ => ⟨S100000x128, .f32⟩
  | .hbm, ⟨8, _⟩ => ⟨S4x128, .f32⟩
  | .hbm, ⟨9, _⟩ => ⟨S128x128, .f32⟩
  | .hbm, ⟨10, _⟩ => ⟨S128, .f32⟩
  | .hbm, ⟨11, _⟩ => ⟨S_, .i32⟩
  | .hbm, ⟨12, _⟩ => ⟨S100000, .i32⟩
  | .hbm, ⟨13, _⟩ => ⟨S100000, .i1⟩
  | .hbm, ⟨14, _⟩ => ⟨S_, .i32⟩
  | .hbm, ⟨15, _⟩ => ⟨S100000, .i32⟩
  | .hbm, ⟨16, _⟩ => ⟨S100000, .i32⟩
  | .hbm, ⟨17, _⟩ => ⟨S100000, .i32⟩
  | .hbm, ⟨18, _⟩ => ⟨S100000x1, .i32⟩
  | .hbm, ⟨19, _⟩ => ⟨S100000x128, .f32⟩
  | .hbm, ⟨20, _⟩ => ⟨S_, .i32⟩
  | .hbm, ⟨21, _⟩ => ⟨S100000, .i32⟩
  | .hbm, ⟨22, _⟩ => ⟨S100000, .i1⟩
  | .hbm, ⟨23, _⟩ => ⟨S_, .i32⟩
  | .hbm, ⟨24, _⟩ => ⟨S100000, .i32⟩
  | .hbm, ⟨25, _⟩ => ⟨S100000, .i32⟩
  | .hbm, ⟨26, _⟩ => ⟨S100000, .i32⟩
  | .hbm, ⟨27, _⟩ => ⟨S100000x1, .i32⟩
  | .hbm, ⟨28, _⟩ => ⟨S100000x128, .f32⟩
  | .hbm, ⟨29, _⟩ => ⟨S100000x128, .f32⟩
  | .hbm, ⟨30, _⟩ => ⟨S_, .i32⟩
  | .hbm, ⟨31, _⟩ => ⟨S100000, .i32⟩
  | .hbm, ⟨32, _⟩ => ⟨S100000, .i1⟩
  | .hbm, ⟨33, _⟩ => ⟨S_, .i32⟩
  | .hbm, ⟨34, _⟩ => ⟨S100000, .i32⟩
  | .hbm, ⟨35, _⟩ => ⟨S100000, .i32⟩
  | .hbm, ⟨36, _⟩ => ⟨S100000, .i32⟩
  | .hbm, ⟨37, _⟩ => ⟨S100000x1, .i32⟩
  | .hbm, ⟨38, _⟩ => ⟨S100000x128, .f32⟩
  | .hbm, ⟨39, _⟩ => ⟨S100000x128, .f32⟩
  | .hbm, ⟨40, _⟩ => ⟨S100000x128, .bf16⟩
  | .hbm, ⟨41, _⟩ => ⟨S_, .i32⟩
  | .hbm, ⟨42, _⟩ => ⟨S600000, .i32⟩
  | .hbm, ⟨43, _⟩ => ⟨S600000, .i1⟩
  | .hbm, ⟨44, _⟩ => ⟨S_, .i32⟩
  | .hbm, ⟨45, _⟩ => ⟨S600000, .i32⟩
  | .hbm, ⟨46, _⟩ => ⟨S600000, .i32⟩
  | .hbm, ⟨47, _⟩ => ⟨S600000, .i32⟩
  | .hbm, ⟨48, _⟩ => ⟨S600000x1, .i32⟩
  | .hbm, ⟨49, _⟩ => ⟨S600000x128, .bf16⟩
  | .hbm, ⟨50, _⟩ => ⟨S600000x128, .f32⟩
  | .hbm, ⟨51, _⟩ => ⟨S600000x1, .f32⟩
  | .hbm, ⟨52, _⟩ => ⟨S600000x128, .f32⟩
  | .hbm, ⟨53, _⟩ => ⟨S600000x128, .f32⟩
  | .hbm, ⟨54, _⟩ => ⟨S_, .f32⟩
  | .hbm, ⟨55, _⟩ => ⟨S100000x128, .f32⟩
  | .hbm, ⟨56, _⟩ => ⟨S600000x1, .i32⟩
  | .hbm, ⟨57, _⟩ => ⟨S100000x128, .f32⟩
  | .hbm, ⟨58, _⟩ => ⟨S100000x128, .bf16⟩
  | .hbm, ⟨59, _⟩ => ⟨S128x128, .f32⟩
  | .hbm, ⟨60, _⟩ => ⟨S1x128, .f32⟩
  | .hbm, ⟨61, _⟩ => ⟨S100000x128, .f32⟩
  | .local _ .vmem, ⟨0, _⟩ => ⟨S10000x128, .bf16⟩
  | .local _ .vmem, ⟨1, _⟩ => ⟨S10000x128, .bf16⟩
  | .local _ .vmem, ⟨2, _⟩ => ⟨S128x128, .f32⟩
  | .local _ .vmem, ⟨3, _⟩ => ⟨S1x128, .f32⟩
  | .local _ .vmem, ⟨4, _⟩ => ⟨S10000x128, .f32⟩
  | .local _ .vmem, ⟨5, _⟩ => ⟨S10000x128, .f32⟩
  | _, _ => ⟨S100000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c_1 : Ref sig .tc := ⟨.hbm, 20, rfl⟩
abbrev main_v7 : Ref sig .tc := ⟨.hbm, 21, rfl⟩
abbrev main_v8 : Ref sig .tc := ⟨.hbm, 22, rfl⟩
abbrev main_c_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_c_3 : Ref sig .tc := ⟨.hbm, 30, rfl⟩
abbrev main_v15 : Ref sig .tc := ⟨.hbm, 31, rfl⟩
abbrev main_v16 : Ref sig .tc := ⟨.hbm, 32, rfl⟩
abbrev main_c_4 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  bitsLt_bf16_f32 : FTy.bits .bf16 < FTy.bits .f32
  bcast_S_S600000 : S_.BroadcastsInDim S600000 (![] : Fin 0 → Fin S600000.rank)
  bcast_S600000_S600000x1_0 : S600000.BroadcastsInDim S600000x1 (![0] : Fin 1 → Fin S600000x1.rank)
  bcast_S600000x1_S600000x128_0_1 : S600000x1.BroadcastsInDim S600000x128 (![0, 1] : Fin 2 → Fin S600000x128.rank)
  bcast_S_S100000x128 : S_.BroadcastsInDim S100000x128 (![] : Fin 0 → Fin S100000x128.rank)
  transposes_S128x128_S128x128_1_0 : S128x128.Transposes [1, 0] S128x128
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  gather_S100000x128_S100000x1_S100000x128_1_0_n_n_0_1_1128_wf : GatherDims.WF S100000x128 S100000x1 S100000x128 [1] [0] [] [0] [] 1 ![1, 128]
  gather_S4x128_S100000x1_S100000x128_1_0_n_n_0_1_1128_wf : GatherDims.WF S4x128 S100000x1 S100000x128 [1] [0] [] [0] [] 1 ![1, 128]
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S10000x128_S128x128_S10000x128_1_0_0_1_n_n_wf : DotDims.WF S10000x128 S128x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .bf16 = 32 ∨ (Rect.block (s := S100000x128) S10000x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S100000x128.size a
  hwx0_3 : ∀ i : grid0.Coords, EltTy.bits .f32 = 32 ∨ (Rect.block (s := S100000x128) S10000x128.size (cc0_transform_3 i) (hinb0_3 i)).WholeWords (EltTy.packing .f32)

variable [Facts₀]

def gather_S100000x128_S100000x1_S100000x128_1_0_n_n_0_1_1128 : GatherDims S100000x128 S100000x1 S100000x128 where
  offsetDims := [1]
  collapsedSliceDims := [0]
  operandBatchingDims := []
  startIndicesBatchingDims := []
  startIndexMap := [0]
  indexVectorDim := 1
  sliceSizes := ![1, 128]
  wf := gather_S100000x128_S100000x1_S100000x128_1_0_n_n_0_1_1128_wf
def gather_S4x128_S100000x1_S100000x128_1_0_n_n_0_1_1128 : GatherDims S4x128 S100000x1 S100000x128 where
  offsetDims := [1]
  collapsedSliceDims := [0]
  operandBatchingDims := []
  startIndicesBatchingDims := []
  startIndexMap := [0]
  indexVectorDim := 1
  sliceSizes := ![1, 128]
  wf := gather_S4x128_S100000x1_S100000x128_1_0_n_n_0_1_1128_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

abbrev win0_0 : Pipeline.Window sig grid0 :=
  Pipeline.Window.ofSpec (Memref.whole main_v38) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v39) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v40) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v41) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000 : Shape := ⟨1, ![100000]⟩
abbrev S600000 : Shape := ⟨1, ![600000]⟩
abbrev S100000x128 : Shape := ⟨2, ![100000, 128]⟩
abbrev S4x128 : Shape := ⟨2, ![4, 128]⟩
abbrev S128x128 : Shape := ⟨2, ![128, 128]⟩
abbrev S128 : Shape := ⟨1, ![128]⟩
abbrev S_ : Shape := ⟨0, ![]⟩
abbrev S100000x1 : Shape := ⟨2, ![100000, 1]⟩
abbrev S600000x1 : Shape := ⟨2, ![600000, 1]⟩
abbrev S600000x128 : Shape := ⟨2, ![600000, 128]⟩
abbrev S1x128 : Shape := ⟨2, ![1, 128]⟩

abbrev nBuf : Space → Nat
  | .hbm => 61
  | .vmem => 0
  | .smem => 0
  | _ => 0

abbrev bufTy : (tb : Table) → Fin (tcTables nBuf tb) → BufTy
  | .hbm, ⟨0, _⟩ => ⟨S100000, .i32⟩
  | .hbm, ⟨1, _⟩ => ⟨S100000, .i32⟩
  | .hbm, ⟨2, _⟩ => ⟨S100000, .i32⟩
  | .hbm, ⟨3, _⟩ => ⟨S600000, .i32⟩
  | .hbm, ⟨4, _⟩ => ⟨S600000, .i32⟩
  | .hbm, ⟨5, _⟩ => ⟨S600000, .f32⟩
  | .hbm, ⟨6, _⟩ => ⟨S100000x128, .f32⟩
  | .hbm, ⟨7, _⟩ => ⟨S100000x128, .f32⟩
  | .hbm, ⟨8, _⟩ => ⟨S4x128, .f32⟩
  | .hbm, ⟨9, _⟩ => ⟨S128x128, .f32⟩
  | .hbm, ⟨10, _⟩ => ⟨S128, .f32⟩
  | .hbm, ⟨11, _⟩ => ⟨S_, .i32⟩
  | .hbm, ⟨12, _⟩ => ⟨S100000, .i32⟩
  | .hbm, ⟨13, _⟩ => ⟨S100000, .i1⟩
  | .hbm, ⟨14, _⟩ => ⟨S_, .i32⟩
  | .hbm, ⟨15, _⟩ => ⟨S100000, .i32⟩
  | .hbm, ⟨16, _⟩ => ⟨S100000, .i32⟩
  | .hbm, ⟨17, _⟩ => ⟨S100000, .i32⟩
  | .hbm, ⟨18, _⟩ => ⟨S100000x1, .i32⟩
  | .hbm, ⟨19, _⟩ => ⟨S100000x128, .f32⟩
  | .hbm, ⟨20, _⟩ => ⟨S_, .i32⟩
  | .hbm, ⟨21, _⟩ => ⟨S100000, .i32⟩
  | .hbm, ⟨22, _⟩ => ⟨S100000, .i1⟩
  | .hbm, ⟨23, _⟩ => ⟨S_, .i32⟩
  | .hbm, ⟨24, _⟩ => ⟨S100000, .i32⟩
  | .hbm, ⟨25, _⟩ => ⟨S100000, .i32⟩
  | .hbm, ⟨26, _⟩ => ⟨S100000, .i32⟩
  | .hbm, ⟨27, _⟩ => ⟨S100000x1, .i32⟩
  | .hbm, ⟨28, _⟩ => ⟨S100000x128, .f32⟩
  | .hbm, ⟨29, _⟩ => ⟨S100000x128, .f32⟩
  | .hbm, ⟨30, _⟩ => ⟨S_, .i32⟩
  | .hbm, ⟨31, _⟩ => ⟨S100000, .i32⟩
  | .hbm, ⟨32, _⟩ => ⟨S100000, .i1⟩
  | .hbm, ⟨33, _⟩ => ⟨S_, .i32⟩
  | .hbm, ⟨34, _⟩ => ⟨S100000, .i32⟩
  | .hbm, ⟨35, _⟩ => ⟨S100000, .i32⟩
  | .hbm, ⟨36, _⟩ => ⟨S100000, .i32⟩
  | .hbm, ⟨37, _⟩ => ⟨S100000x1, .i32⟩
  | .hbm, ⟨38, _⟩ => ⟨S100000x128, .f32⟩
  | .hbm, ⟨39, _⟩ => ⟨S100000x128, .f32⟩
  | .hbm, ⟨40, _⟩ => ⟨S600000x1, .f32⟩
  | .hbm, ⟨41, _⟩ => ⟨S_, .i32⟩
  | .hbm, ⟨42, _⟩ => ⟨S600000, .i32⟩
  | .hbm, ⟨43, _⟩ => ⟨S600000, .i1⟩
  | .hbm, ⟨44, _⟩ => ⟨S_, .i32⟩
  | .hbm, ⟨45, _⟩ => ⟨S600000, .i32⟩
  | .hbm, ⟨46, _⟩ => ⟨S600000, .i32⟩
  | .hbm, ⟨47, _⟩ => ⟨S600000, .i32⟩
  | .hbm, ⟨48, _⟩ => ⟨S600000x1, .i32⟩
  | .hbm, ⟨49, _⟩ => ⟨S600000x128, .f32⟩
  | .hbm, ⟨50, _⟩ => ⟨S600000x128, .f32⟩
  | .hbm, ⟨51, _⟩ => ⟨S600000x128, .f32⟩
  | .hbm, ⟨52, _⟩ => ⟨S_, .f32⟩
  | .hbm, ⟨53, _⟩ => ⟨S100000x128, .f32⟩
  | .hbm, ⟨54, _⟩ => ⟨S600000x1, .i32⟩
  | .hbm, ⟨55, _⟩ => ⟨S100000x128, .f32⟩
  | .hbm, ⟨56, _⟩ => ⟨S128x128, .f32⟩
  | .hbm, ⟨57, _⟩ => ⟨S100000x128, .f32⟩
  | .hbm, ⟨58, _⟩ => ⟨S1x128, .f32⟩
  | .hbm, ⟨59, _⟩ => ⟨S100000x128, .f32⟩
  | .hbm, ⟨60, _⟩ => ⟨S100000x128, .f32⟩
  | _, _ => ⟨S100000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c_1 : Ref sig .tc := ⟨.hbm, 20, rfl⟩
abbrev main_v7 : Ref sig .tc := ⟨.hbm, 21, rfl⟩
abbrev main_v8 : Ref sig .tc := ⟨.hbm, 22, rfl⟩
abbrev main_c_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_c_3 : Ref sig .tc := ⟨.hbm, 30, rfl⟩
abbrev main_v15 : Ref sig .tc := ⟨.hbm, 31, rfl⟩
abbrev main_v16 : Ref sig .tc := ⟨.hbm, 32, rfl⟩
abbrev main_c_4 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩

abbrev nD : Nat := 1
abbrev τ : Topo := Topo.v7x

variable {F : FTy → Type} [FloatOps F]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  bcast_S600000_S600000x1_0 : S600000.BroadcastsInDim S600000x1 (![0] : Fin 1 → Fin S600000x1.rank)
  bcast_S_S600000 : S_.BroadcastsInDim S600000 (![] : Fin 0 → Fin S600000.rank)
  bcast_S600000x1_S600000x128_0_1 : S600000x1.BroadcastsInDim S600000x128 (![0, 1] : Fin 2 → Fin S600000x128.rank)
  bcast_S_S100000x128 : S_.BroadcastsInDim S100000x128 (![] : Fin 0 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S100000x1_S100000x128_1_0_n_n_0_1_1128_wf : GatherDims.WF S100000x128 S100000x1 S100000x128 [1] [0] [] [0] [] 1 ![1, 128]
  gather_S4x128_S100000x1_S100000x128_1_0_n_n_0_1_1128_wf : GatherDims.WF S4x128 S100000x1 S100000x128 [1] [0] [] [0] [] 1 ![1, 128]
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S100000x128_S128x128_S100000x128_1_0_0_1_n_n_wf : DotDims.WF S100000x128 S128x128 S100000x128 [1] [0] [0] [1] [] []

variable [Facts₀]

def gather_S100000x128_S100000x1_S100000x128_1_0_n_n_0_1_1128 : GatherDims S100000x128 S100000x1 S100000x128 where
  offsetDims := [1]
  collapsedSliceDims := [0]
  operandBatchingDims := []
  startIndicesBatchingDims := []
  startIndexMap := [0]
  indexVectorDim := 1
  sliceSizes := ![1, 128]
  wf := gather_S100000x128_S100000x1_S100000x128_1_0_n_n_0_1_1128_wf
def gather_S4x128_S100000x1_S100000x128_1_0_n_n_0_1_1128 : GatherDims S4x128 S100000x1 S100000x128 where
  offsetDims := [1]
  collapsedSliceDims := [0]
  operandBatchingDims := []
  startIndicesBatchingDims := []
  startIndexMap := [0]
  indexVectorDim := 1
  sliceSizes := ![1, 128]
  wf := gather_S4x128_S100000x1_S100000x128_1_0_n_n_0_1_1128_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.DenseSpec.lean ====
/-
  The dense layer `agg · Wᵀ + b` as ONE function on the extended reals.

  For a [100000, 128] array `A`, a [128, 128] weight `W` and a bias `b` of length 128, the entry at row `p`
  and column `q` is the inner product of row `p` of `A` with row `q` of `W` (that is, column `q` of the
  transposed weight), plus `b q`:

      dense A W b (p, q) = (∑ k, A (p, k) · W (q, k)) + b q.

  Both programs compute exactly this sum in this order of terms, so no law of the extended reals beyond the
  definition is needed to join them: nothing here distributes, cancels or reorders, and the infinities need no care.
-/
import Idealize.ShloMosaic.PureOps.Ideal
import Idealize.ShloMosaic.Lib.ValueIdx

noncomputable section

namespace Cert.Dense

open Idealize.ShloMosaic Idealize.ShloMosaic.ValueIdx

/-- Row `p` of `A` against row `q` of `W`, plus the bias at `q`. -/
def denseAt (A : (⟨2, ![100000, 128]⟩ : Shape).Idx → EReal) (W : (⟨2, ![128, 128]⟩ : Shape).Idx → EReal)
    (b : (⟨1, ![128]⟩ : Shape).Idx → EReal) (p : Fin 100000) (q : Fin 128) : EReal :=
  (∑ k : Fin 128, A (ix2 p k) * W (ix2 q k)) + b (ix1 q)

/-- The whole [100000, 128] result, index by index. -/
def dense (A : (⟨2, ![100000, 128]⟩ : Shape).Idx → EReal) (W : (⟨2, ![128, 128]⟩ : Shape).Idx → EReal)
    (b : (⟨1, ![128]⟩ : Shape).Idx → EReal) : (⟨2, ![100000, 128]⟩ : Shape).Idx → EReal :=
  fun i => denseAt A W b (i 0) (i 1)

theorem dense_apply (A : (⟨2, ![100000, 128]⟩ : Shape).Idx → EReal) (W : (⟨2, ![128, 128]⟩ : Shape).Idx → EReal)
    (b : (⟨1, ![128]⟩ : Shape).Idx → EReal) (p : Fin 100000) (q : Fin 128) :
    dense A W b (ix2 p q) = (∑ k : Fin 128, A (ix2 p k) * W (ix2 q k)) + b (ix1 q) := rfl

end Cert.Dense

end
-- ==== Proof.ReferenceDense.lean ====
/-
  The reference's result is the dense layer of its aggregated messages.

  The reference ends with `dot_general(agg, Wᵀ) + broadcast(broadcast b)`. Read at an index (p, q): the product is
  the sum over `k` of `agg (p, k)` times the transposed weight at `(k, q)`, which is `W (q, k)`; the bias, lifted
  to one row and then to every row, reads `b q`. So the result is `dense agg W b`, where `agg` — the gather,
  scale and scatter-add chain — is carried as one opaque array and never opened.
-/
import proofs.«176500_j73452530696646_2_alg».proof.Proof.Gen.ReferenceIdeal.Read
import proofs.«176500_j73452530696646_2_alg».proof.Proof.DenseSpec

noncomputable section

namespace Cert.ReferenceIdeal.Dense

open Cert.ReferenceIdeal Cert.ReferenceIdeal.Read Idealize.ShloMosaic Idealize.ShloMosaic.ValueIdx

/-- The left operand of the product at output (p, q) and contraction index `k` is read at (p, k). -/
theorem lidx_eq (i : S100000x128.Idx) (k : Fin 128) : lidx_main_v37 i k = ix2 (i 0) k :=
  funext fun a => Fin.ext (by match a with | ⟨0, _⟩ => rfl | ⟨1, _⟩ => rfl)

/-- The transposed weight at (k, q) is the weight at (q, k). -/
theorem ridx_eq (i : S100000x128.Idx) (k : Fin 128) : idx_main_v36 (ridx_main_v37 i k) = ix2 (i 1) k :=
  funext fun a => Fin.ext (by match a with | ⟨0, _⟩ => rfl | ⟨1, _⟩ => rfl)

/-- The bias lifted to [1, 128] and then to every row reads, at (p, q), the bias at `q`. -/
theorem bidx_eq (i : S100000x128.Idx) : idx_main_v38 (idx_main_v39 i) = ix1 (i 1) :=
  funext fun a => Fin.ext (by match a with | ⟨0, _⟩ => rfl)

/-- The reference's last stage is the dense layer of its aggregated messages `val_main_v35`, the weight and
    the bias. -/
theorem result_eq (x0 x1 x2 : (⟨S100000, .i32⟩ : BufTy).Contents (Elt Ideal)) (x3 x4 : (⟨S600000, .i32⟩ : BufTy).Contents (Elt Ideal))
    (x5 : (⟨S600000, .f32⟩ : BufTy).Contents (Elt Ideal)) (x6 x7 : (⟨S100000x128, .f32⟩ : BufTy).Contents (Elt Ideal))
    (x8 : (⟨S4x128, .f32⟩ : BufTy).Contents (Elt Ideal)) (x9 : (⟨S128x128, .f32⟩ : BufTy).Contents (Elt Ideal))
    (x10 : (⟨S128, .f32⟩ : BufTy).Contents (Elt Ideal)) :
    val_main_v40 (F := Ideal) x0 x1 x2 x3 x4 x5 x6 x7 x8 x9 x10
      = Cert.Dense.dense (val_main_v35 (F := Ideal) x0 x1 x2 x3 x4 x5 x6 x7 x8) x9 x10 := by
  funext i
  rw [val_main_v40_apply, val_main_v37_apply, val_main_v39_apply, val_main_v38_apply, bidx_eq]
  generalize val_main_v35 (F := Ideal) x0 x1 x2 x3 x4 x5 x6 x7 x8 = agg
  show (∑ k : Fin 128, agg (lidx_main_v37 i k) * val_main_v36 (F := Ideal) x9 (ridx_main_v37 i k)) + x10 (ix1 (i 1)) = _
  refine congrArg (· + x10 (ix1 (i 1))) (Finset.sum_congr rfl fun k _ => ?_)
  rw [val_main_v36_apply, lidx_eq, ridx_eq]
  rfl

end Cert.ReferenceIdeal.Dense

end
-- ==== Proof.KernelPayload.lean ====
/-
  The kernel body's one stored value, read at an index.

  At a grid point the body loads a [10000, 128] block `x0` of the aggregated messages, the whole [128, 128]
  transposed weight `x1` and the [1, 128] bias row `x2`, and stores
  `matmul(x0, x1, 0) + broadcast(x2)`. The changes of float format on the way into the product are the identity
  on the extended reals, the shape casts are casts of a shape to itself, and the product accumulates into zero, so
  at row `p` and column `q` of the block the stored value is

      (∑ k, x0 (p, k) · x1 (k, q)) + x2 (0, q).
-/
import proofs.«176500_j73452530696646_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Payload

open Cert.KernelIdeal Cert.KernelIdeal.Gen Idealize.ShloMosaic Idealize.ShloMosaic.ValueIdx

/-! ## The product's operand indices: rows of the left operand, columns of the right -/

theorem lhs_row (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl

theorem lhs_contr (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q

theorem rhs_contr (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q

theorem rhs_col (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- A [10000, 128] block times a [128, 128] matrix, accumulated into zero, read at (p, q): the sum over `k` of
    the block at (p, k) times the matrix at (k, q). -/
theorem matmul_rowcol (lhs : FVec Ideal S10000x128 .bf16) (rhs : FVec Ideal S128x128 .bf16) (p : Fin 10000) (q : Fin 128) :
    matmul dot_S10000x128_S128x128_S10000x128_1_0_0_1_n_n none lhs rhs (constant (F := Ideal) S10000x128 .f32 0x00000000#32) (ix2 p q)
      = ∑ k : Fin 128, lhs (ix2 p k) * rhs (ix2 k q) := by
  show FloatOps.matmul dot_S10000x128_S128x128_S10000x128_1_0_0_1_n_n none lhs rhs (constant (F := Ideal) S10000x128 .f32 0x00000000#32) (ix2 p q) = _
  rw [Ideal.matmul_constant_zero_apply, ← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 p q) ((contrEquiv1 dot_S10000x128_S128x128_S10000x128_1_0_0_1_n_n 128 rfl rfl).symm k) = ix2 p k := funext fun a => Fin.ext (by
    match a with
    | ⟨0, _⟩ => exact lhs_row _ _
    | ⟨1, _⟩ => exact (lhs_contr _ _).trans hk)
  have er : dot_S10000x128_S128x128_S10000x128_1_0_0_1_n_n.rhsIdx (ix2 p q) ((contrEquiv1 dot_S10000x128_S128x128_S10000x128_1_0_0_1_n_n 128 rfl rfl).symm k) = ix2 k q := funext fun a => Fin.ext (by
    match a with
    | ⟨0, _⟩ => exact (rhs_contr _ _).trans hk
    | ⟨1, _⟩ => exact rhs_col _ _)
  rw [el, er]

/-! ## The payload -/

/-- The stored value at row `p`, column `q` of the block: the row of the message block against the column of
    the transposed weight, plus the bias row at `q`. -/
theorem pay_apply (x0 : Vec Ideal S10000x128 .bf16) (x1 : Vec Ideal S128x128 .f32) (x2 : Vec Ideal S1x128 .f32)
    (p : Fin 10000) (q : Fin 128) :
    k0_pay1 x0 x1 x2 (ix2 p q) = (∑ k : Fin 128, x0 (ix2 p k) * x1 (ix2 k q)) + x2 (ix2 (0 : Fin 1) q) := by
  unfold k0_pay1
  simp only [shapeCast_self]
  rw [addf_apply, matmul_rowcol, broadcastTo_1b_ab_apply]
  rfl

end Cert.KernelIdeal.Payload

end
-- ==== Proof.PrefixChain.lean ====
/-
  The kernel's operations before its region compute the reference's aggregated messages.

  Both programs form the node embedding `xs` (three gathered rows added), gather it along the edges at the edge
  index `j`, scale by the edge value, and scatter-add into the nodes from zero. The kernel's program narrows the
  float format of `xs` before the edge gather, widens after it, and narrows the aggregate once more; on the
  extended reals each of these is the identity. So the two chains are one function of the same operands. The
  proof removes the three format changes by name and matches what is left, operation by operation, against the
  reference's stages; nothing is evaluated.
-/
import proofs.«176500_j73452530696646_2_alg».proof.KernelIdeal
import proofs.«176500_j73452530696646_2_alg».proof.Proof.Gen.KernelIdeal
import proofs.«176500_j73452530696646_2_alg».proof.Proof.Gen.ReferenceIdeal.Read
import Idealize.ShloMosaic.PureOps.Ideal

noncomputable section

namespace Cert.KernelIdeal.Prefix

open Cert.KernelIdeal Cert.KernelIdeal.Facts₀ Idealize.ShloMosaic

/-- Narrowing the float format is the identity on the extended reals. -/
theorem truncf_id {s : Shape} {φ ψ : FTy} (x : FVec Ideal s φ) (h : ψ.bits < φ.bits) :
    truncf ψ x h = (x : FVec Ideal s ψ) := rfl

/-- Widening the float format is the identity on the extended reals. -/
theorem extf_id {s : Shape} {φ ψ : FTy} (x : FVec Ideal s φ) (h : φ.bits < ψ.bits) :
    extf ψ x h = (x : FVec Ideal s ψ) := rfl

/-- The node embedding: the user, item and behavior rows gathered (a negative index wrapped once) and added. -/
theorem embedding_eq (x0 x1 x2 : IVec S100000 32) (x6 x7 : FVec Ideal S100000x128 .f32) (x8 : FVec Ideal S4x128 .f32) :
    (addf (addf (Host.gather gather_S100000x128_S100000x1_S100000x128_1_0_n_n_0_1_1128 x6 (broadcastInDim S100000x1 ![0] bcast_S100000_S100000x1_0 (select (cmpi .slt x0 (broadcastInDim S100000 ![] bcast_S_S100000 (constantI S_ 32 0#32))) (addi x0 (broadcastInDim S100000 ![] bcast_S_S100000 (constantI S_ 32 100000#32))) x0))) (Host.gather gather_S100000x128_S100000x1_S100000x128_1_0_n_n_0_1_1128 x7 (broadcastInDim S100000x1 ![0] bcast_S100000_S100000x1_0 (select (cmpi .slt x1 (broadcastInDim S100000 ![] bcast_S_S100000 (constantI S_ 32 0#32))) (addi x1 (broadcastInDim S100000 ![] bcast_S_S100000 (constantI S_ 32 100000#32))) x1)))) (Host.gather gather_S4x128_S100000x1_S100000x128_1_0_n_n_0_1_1128 x8 (broadcastInDim S100000x1 ![0] bcast_S100000_S100000x1_0 (select (cmpi .slt x2 (broadcastInDim S100000 ![] bcast_S_S100000 (constantI S_ 32 0#32))) (addi x2 (broadcastInDim S100000 ![] bcast_S_S100000 (constantI S_ 32 4#32))) x2))))
      = Cert.ReferenceIdeal.Read.val_main_v22 (F := Ideal) x0 x1 x2 x6 x7 x8 := rfl

/-- The edge index column: the edge's source node, a negative index wrapped once, as a [600000, 1] column. -/
theorem edge_index_eq (x4 : IVec S600000 32) :
    (broadcastInDim S600000x1 ![0] bcast_S600000_S600000x1_0 (select (cmpi .slt x4 (broadcastInDim S600000 ![] bcast_S_S600000 (constantI S_ 32 0#32))) (addi x4 (broadcastInDim S600000 ![] bcast_S_S600000 (constantI S_ 32 100000#32))) x4))
      = Cert.ReferenceIdeal.Read.val_main_v29 (F := Ideal) x4 := rfl

/-- From the embedding `xs` and the edge index `j` on: gather, scale, scatter-add from zero — with the kernel's
    three changes of float format, which vanish. -/
theorem aggregate_eq (x3 : IVec S600000 32) (x5 : FVec Ideal S600000 .f32) (xs : FVec Ideal S100000x128 .f32) (j : IVec S600000x1 32) :
    truncf .bf16 (Host.scatterAdd scatter_S100000x128_S600000x1_S600000x128_1_0_0_1 (broadcastInDim S100000x128 ![] bcast_S_S100000x128 (constant (F := Ideal) S_ .f32 0x00000000#32)) (broadcastInDim S600000x1 ![0] bcast_S600000_S600000x1_0 x3) (mulf (broadcastInDim S600000x128 ![0, 1] bcast_S600000x1_S600000x128_0_1 (broadcastInDim S600000x1 ![0] bcast_S600000_S600000x1_0 x5)) (extf .f32 (Host.gather gather_S100000x128_S600000x1_S600000x128_1_0_n_n_0_1_1128 (truncf .bf16 xs bitsLt_bf16_f32) j) bitsLt_bf16_f32))) bitsLt_bf16_f32
      = Host.scatterAdd Cert.ReferenceIdeal.scatter_S100000x128_S600000x1_S600000x128_1_0_0_1 (Cert.ReferenceIdeal.Read.val_main_v33 (F := Ideal)) (Cert.ReferenceIdeal.Read.val_main_v34 (F := Ideal) x3) (mulf (Cert.ReferenceIdeal.Read.val_main_v31 (F := Ideal) x5) (Host.gather Cert.ReferenceIdeal.gather_S100000x128_S600000x1_S600000x128_1_0_n_n_0_1_1128 xs j)) := by
  rw [truncf_id, extf_id, truncf_id]
  rfl

/-- THE PREFIX: the kernel's operations before its region, on any operands, are the reference's aggregated
    messages of the same operands. -/
theorem prefix_eq (x0 x1 x2 : IVec S100000 32) (x3 x4 : IVec S600000 32) (x5 : FVec Ideal S600000 .f32)
    (x6 x7 : FVec Ideal S100000x128 .f32) (x8 : FVec Ideal S4x128 .f32) :
    truncf .bf16 (Host.scatterAdd scatter_S100000x128_S600000x1_S600000x128_1_0_0_1 (broadcastInDim S100000x128 ![] bcast_S_S100000x128 (constant (F := Ideal) S_ .f32 0x00000000#32)) (broadcastInDim S600000x1 ![0] bcast_S600000_S600000x1_0 x3) (mulf (broadcastInDim S600000x128 ![0, 1] bcast_S600000x1_S600000x128_0_1 (broadcastInDim S600000x1 ![0] bcast_S600000_S600000x1_0 x5)) (extf .f32 (Host.gather gather_S100000x128_S600000x1_S600000x128_1_0_n_n_0_1_1128 (truncf .bf16 (addf (addf (Host.gather gather_S100000x128_S100000x1_S100000x128_1_0_n_n_0_1_1128 x6 (broadcastInDim S100000x1 ![0] bcast_S100000_S100000x1_0 (select (cmpi .slt x0 (broadcastInDim S100000 ![] bcast_S_S100000 (constantI S_ 32 0#32))) (addi x0 (broadcastInDim S100000 ![] bcast_S_S100000 (constantI S_ 32 100000#32))) x0))) (Host.gather gather_S100000x128_S100000x1_S100000x128_1_0_n_n_0_1_1128 x7 (broadcastInDim S100000x1 ![0] bcast_S100000_S100000x1_0 (select (cmpi .slt x1 (broadcastInDim S100000 ![] bcast_S_S100000 (constantI S_ 32 0#32))) (addi x1 (broadcastInDim S100000 ![] bcast_S_S100000 (constantI S_ 32 100000#32))) x1)))) (Host.gather gather_S4x128_S100000x1_S100000x128_1_0_n_n_0_1_1128 x8 (broadcastInDim S100000x1 ![0] bcast_S100000_S100000x1_0 (select (cmpi .slt x2 (broadcastInDim S100000 ![] bcast_S_S100000 (constantI S_ 32 0#32))) (addi x2 (broadcastInDim S100000 ![] bcast_S_S100000 (constantI S_ 32 4#32))) x2)))) bitsLt_bf16_f32) (broadcastInDim S600000x1 ![0] bcast_S600000_S600000x1_0 (select (cmpi .slt x4 (broadcastInDim S600000 ![] bcast_S_S600000 (constantI S_ 32 0#32))) (addi x4 (broadcastInDim S600000 ![] bcast_S_S600000 (constantI S_ 32 100000#32))) x4))) bitsLt_bf16_f32))) bitsLt_bf16_f32
      = Cert.ReferenceIdeal.Read.val_main_v35 (F := Ideal) x0 x1 x2 x3 x4 x5 x6 x7 x8 := by
  rw [embedding_eq, edge_index_eq, aggregate_eq]
  rfl

end Cert.KernelIdeal.Prefix

end
-- ==== Proof.KernelEntryMessages.lean ====
/-
  What the kernel's first input array holds when its one region is entered: the aggregated messages.

  The array is written by the program's operations before the region: the embedding rows gathered and added, the
  edge gather, the scaling by the edge values and the scatter-add into the nodes, with three changes of float
  format in between. Read back from the launch memory, that is the kernel's prefix applied to the launch arrays,
  which is the reference's aggregated-messages chain of the same arrays (the format changes are the identity on
  the extended reals). The chain itself is never opened: only its name is carried.
-/
import proofs.«176500_j73452530696646_2_alg».proof.Proof.Gen.KernelIdeal.Frame
import proofs.«176500_j73452530696646_2_alg».proof.Proof.Gen.ReferenceIdeal.Read
import proofs.«176500_j73452530696646_2_alg».proof.Proof.PrefixChain
import Idealize.ShloMosaic.Lib.StableHlo.Run
import Idealize.ShloMosaic.Lib.ValueLayout
import Idealize.ShloMosaic.PureOps.Ideal

noncomputable section

namespace Cert.KernelIdeal.Entry

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The aggregated messages — the reference's gather, scale and scatter-add chain — of the kernel's launch arrays. -/
def agg (c : Dev nD) : Buf (Elt Ideal) ((c : Thread nD τ).loc main_v38) :=
  Cert.ReferenceIdeal.Read.val_main_v35 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

set_option maxHeartbeats 1000000 in
/-- The first window's array at region entry is the aggregated messages. -/
theorem entry_agg (c : Dev nD) : V m c main_v38 = agg m c := by
  dsimp only [Gen.V, Gen.hostOps0]
  after_results_simp
  exact Prefix.prefix_eq _ _ _ _ _ _ _ _ _

end Cert.KernelIdeal.Entry

end
-- ==== Proof.KernelEntryArrays.lean ====
/-
  What the kernel's second and third input arrays hold when its one region is entered.

  Before the region the program transposes the weight and casts the bias to one row. Read at an index: the
  transposed weight at (k, q) is the weight at (q, k), and the bias row at (0, q) is the bias at `q`.
-/
import proofs.«176500_j73452530696646_2_alg».proof.Proof.Gen.KernelIdeal.Frame
import Idealize.ShloMosaic.Lib.StableHlo.Run
import Idealize.ShloMosaic.Lib.ValueLayout
import Idealize.ShloMosaic.PureOps.Ideal

noncomputable section

namespace Cert.KernelIdeal.Entry

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

set_option maxHeartbeats 1000000 in
/-- The second window's array at region entry is the weight transposed. -/
theorem entry_weight_eq (c : Dev nD) :
    V m c main_v39 = transpose S128x128 [1, 0] (m ((c : Thread nD τ).loc main_arg9)) transposes_S128x128_S128x128_1_0 := by
  dsimp only [Gen.V, Gen.hostOps0]
  after_results_simp

/-- At (k, q) it holds the weight at (q, k). -/
theorem entry_weight (c : Dev nD) (k q : Fin 128) :
    (V m c main_v39 : S128x128.Idx → EReal) (ix2 k q) = (m ((c : Thread nD τ).loc main_arg9) : S128x128.Idx → EReal) (ix2 q k) := by
  rw [entry_weight_eq]
  exact transpose_ix2_apply _ _ k q

set_option maxHeartbeats 1000000 in
/-- The third window's array at region entry is the bias cast to one row. -/
theorem entry_bias_eq (c : Dev nD) :
    V m c main_v40 = shapeCast S1x128 (m ((c : Thread nD τ).loc main_arg10) : S128.Idx → EReal) shapeCasts_S128_S1x128 := by
  dsimp only [Gen.V, Gen.hostOps0]
  after_results_simp
  rfl

/-- At (0, q) it holds the bias at `q`. -/
theorem entry_bias (c : Dev nD) (q : Fin 128) :
    (V m c main_v40 : S1x128.Idx → EReal) (ix2 (0 : Fin 1) q) = (m ((c : Thread nD τ).loc main_arg10) : S128.Idx → EReal) (ix1 q) := by
  rw [entry_bias_eq]
  exact shapeCast_a_1a_apply _ _ (0 : Fin 1) q

end Cert.KernelIdeal.Entry

end
-- ==== Proof.KernelDense.lean ====
/-
  The kernel's result array is the dense layer of the aggregated messages.

  The grid has ten points; point `t` takes rows `10000 t … 10000 t + 9999` of the aggregated messages, the whole
  transposed weight and the bias row, and writes back the same rows of the result. At row `p`, column `q` of its
  block the body stores `(∑ k, x0 (p, k) · x1 (k, q)) + x2 (0, q)`; the block's row `p` is row `10000 t + p` of the
  messages, the transposed weight at (k, q) is the weight at (q, k), and the bias row at (0, q) is the bias at `q`.
  So what point `t` writes back is block `t` of `dense agg W b`. Row `r` of the result lies in the block of point
  `r / 10000`, so the ten blocks cover the array, and the array ends at `dense agg W b` everywhere.
-/
import proofs.«176500_j73452530696646_2_alg».proof.Proof.Gen.KernelIdeal.Value
import proofs.«176500_j73452530696646_2_alg».proof.Proof.KernelPayload
import proofs.«176500_j73452530696646_2_alg».proof.Proof.KernelEntryMessages
import proofs.«176500_j73452530696646_2_alg».proof.Proof.KernelEntryArrays
import proofs.«176500_j73452530696646_2_alg».proof.Proof.DenseSpec
import Idealize.ShloMosaic.Lib.Pipeline.Value

noncomputable section

namespace Cert.KernelIdeal.DenseValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The result: the dense layer of the aggregated messages, the weight and the bias as launched. -/
def result (c : Dev nD) : (⟨2, ![100000, 128]⟩ : Shape).Idx → EReal :=
  Cert.Dense.dense (Entry.agg m c) (m ((c : Thread nD τ).loc main_arg9)) (m ((c : Thread nD τ).loc main_arg10))

/-! ## The index maps over the ten points -/

/-- The message window moves with the result window down the rows; the weight and the bias stay at block (0, 0);
    no window moves along the columns. -/
theorem idx_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) ≤ 9 :=
  (by decide +kernel : ∀ t : Fin grid0.N, _)

/-- Every one of the ten row blocks is some point's. -/
theorem idx_onto : ∀ q0 : Fin 10, ∃ t : Fin cfg0.N, win0_3.index t = ![q0.val, 0] :=
  (by decide +kernel : ∀ q0 : Fin 10, ∃ t : Fin grid0.N, win0_3.index t = ![q0.val, 0])

/-! ## Reading a block of an array: index arithmetic only, the array a variable -/

/-- Row `p`, column `k` of the first window's block at point `t` is row `10000 · (block index) + p` of the array. -/
theorem read_rows (X : S100000x128.Idx → EReal) (t : Fin cfg0.N) (p : Fin 10000) (k : Fin 128) (r : Fin 100000)
    (hr : r.val = win0_3.index t (0 : Fin 2) * 10000 + p.val) :
    ((cfg0.win 0).blk t).view.read (Elt Ideal) X (ix2 p k) = X (ix2 r k) := by
  obtain ⟨e00, e01, -⟩ := idx_facts t
  rw [View.read_apply]
  refine congrArg X (funext fun a => Fin.ext ?_)
  match a with
  | ⟨0, _⟩ => show win0_0.index t (0 : Fin 2) * 10000 + 1 * p.val = r.val; omega
  | ⟨1, _⟩ => show win0_0.index t (1 : Fin 2) * 128 + 1 * k.val = k.val; omega

/-- The second window's block at any point is the whole [128, 128] array. -/
theorem read_weight (X : S128x128.Idx → EReal) (t : Fin cfg0.N) (k q : Fin 128) :
    ((cfg0.win 1).blk t).view.read (Elt Ideal) X (ix2 k q) = X (ix2 k q) := by
  obtain ⟨-, -, e10, e11, -⟩ := idx_facts t
  rw [View.read_apply]
  refine congrArg X (funext fun a => Fin.ext ?_)
  match a with
  | ⟨0, _⟩ => show win0_1.index t (0 : Fin 2) * 128 + 1 * k.val = k.val; omega
  | ⟨1, _⟩ => show win0_1.index t (1 : Fin 2) * 128 + 1 * q.val = q.val; omega

/-- The third window's block at any point is the whole [1, 128] array. -/
theorem read_bias (X : S1x128.Idx → EReal) (t : Fin cfg0.N) (q : Fin 128) :
    ((cfg0.win 2).blk t).view.read (Elt Ideal) X (ix2 (0 : Fin 1) q) = X (ix2 (0 : Fin 1) q) := by
  obtain ⟨-, -, -, -, e20, e21, -⟩ := idx_facts t
  rw [View.read_apply]
  refine congrArg X (funext fun a => Fin.ext ?_)
  match a with
  | ⟨0, _⟩ => show win0_2.index t (0 : Fin 2) * 1 + 1 * (0 : Fin 1).val = (0 : Fin 1).val; omega
  | ⟨1, _⟩ => show win0_2.index t (1 : Fin 2) * 128 + 1 * q.val = q.val; omega

/-- Row `p`, column `q` of the result window's block at point `t` sits at row `10000 · (block index) + p`, column `q`
    of the result array. -/
theorem out_index (t : Fin cfg0.N) (p : Fin 10000) (q : Fin 128) (r : Fin 100000)
    (hr : r.val = win0_3.index t (0 : Fin 2) * 10000 + p.val) :
    ((cfg0.win 3).blk t).view.emb (ix2 p q) = ix2 r q := by
  obtain ⟨-, -, -, -, -, -, e31, -⟩ := idx_facts t
  funext a; apply Fin.ext
  match a with
  | ⟨0, _⟩ => show win0_3.index t (0 : Fin 2) * 10000 + 1 * p.val = r.val; omega
  | ⟨1, _⟩ => show win0_3.index t (1 : Fin 2) * 128 + 1 * q.val = q.val; omega

/-! ## The input blocks at a point, read off the arrays at region entry -/

/-- Row `p` of the message block at point `t` is row `r = 10000 · (block index) + p` of the aggregated messages. -/
theorem msg_block (c : Dev nD) (t : Fin cfg0.N) (p : Fin 10000) (k : Fin 128) (r : Fin 100000)
    (hr : r.val = win0_3.index t (0 : Fin 2) * 10000 + p.val) :
    (iblk m c 0 t : Vec Ideal S10000x128 .bf16) (ix2 p k) = (Entry.agg m c : S100000x128.Idx → EReal) (ix2 r k) :=
  (read_rows (V m c main_v38) t p k r hr).trans (congrFun (Entry.entry_agg m c) (ix2 r k))

/-- The weight block at any point is the whole transposed weight: at (k, q) the weight at (q, k). -/
theorem weight_block (c : Dev nD) (t : Fin cfg0.N) (k q : Fin 128) :
    (iblk m c 1 t : Vec Ideal S128x128 .f32) (ix2 k q) = ((m ((c : Thread nD τ).loc main_arg9)) : S128x128.Idx → EReal) (ix2 q k) :=
  (read_weight (V m c main_v39) t k q).trans (Entry.entry_weight m c k q)

/-- The bias block at any point is the one bias row: at (0, q) the bias at `q`. -/
theorem bias_block (c : Dev nD) (t : Fin cfg0.N) (q : Fin 128) :
    (iblk m c 2 t : Vec Ideal S1x128 .f32) (ix2 (0 : Fin 1) q) = ((m ((c : Thread nD τ).loc main_arg10)) : S128.Idx → EReal) (ix1 q) :=
  (read_bias (V m c main_v40) t q).trans (Entry.entry_bias m c q)

/-! ## What a point writes back -/

/-- The body's stored value on blocks whose rows, columns and bias row are those of `A`, `W`, `b`: the dense
    layer at the corresponding row. -/
theorem stored_dense (x0 : Vec Ideal S10000x128 .bf16) (x1 : Vec Ideal S128x128 .f32) (x2 : Vec Ideal S1x128 .f32)
    (A : (⟨2, ![100000, 128]⟩ : Shape).Idx → EReal) (W : (⟨2, ![128, 128]⟩ : Shape).Idx → EReal)
    (b : (⟨1, ![128]⟩ : Shape).Idx → EReal) (p : Fin 10000) (q : Fin 128) (r : Fin 100000)
    (h0 : ∀ k : Fin 128, x0 (ix2 p k) = A (ix2 r k)) (h1 : ∀ k : Fin 128, x1 (ix2 k q) = W (ix2 q k))
    (h2 : x2 (ix2 (0 : Fin 1) q) = b (ix1 q)) :
    k0_pay1 x0 x1 x2 (ix2 p q) = Cert.Dense.dense A W b (ix2 r q) := by
  rw [Payload.pay_apply, Cert.Dense.dense_apply, h2]
  refine congrArg (· + b (ix1 q)) (Finset.sum_congr rfl fun k _ => ?_)
  rw [h0 k, h1 k]

/-- What point `t` writes back is the body's stored value of the point's three input blocks. -/
theorem flushed_stored (c : Dev nD) (t : Fin cfg0.N) :
    (dats m 0 c).flushed 3 t = (cfg0.win 3).cut (grid0.coords t) (k0_pay1 (iblk m c 0 t) (iblk m c 1 t) (iblk m c 2 t)) := by
  rw [Value.flushed3]
  unfold out0_3
  rw [View.canon_unit_zero hz]
  simp only [View.ld_unit_zero (S := S10000x128) hz, View.ld_unit_zero (S := S128x128) hz, View.ld_unit_zero (S := S1x128) hz]

/-- An index of the result window's block is a row below 10000 and a column below 128. -/
theorem block_index (t : Fin cfg0.N) (y : ((cfg0.win 3).xblock (grid0.coords t)).Idx) :
    ∃ (p : Fin 10000) (q : Fin 128), y = ix2 p q := ⟨y 0, y 1, eq_ix2 y⟩

/-- The result window is never cut at the array's end: what is written back of a staging buffer's contents `Y`
    is `Y` itself. -/
theorem written_back (Y : S10000x128.Idx → EReal) (t : Fin cfg0.N) (p : Fin 10000) (q : Fin 128) :
    (cfg0.win 3).cut (grid0.coords t) Y (ix2 p q) = Y (ix2 p q) := rfl

/-- Block `t` of an array `X` through the result window, at row `p` and column `q`, is `X` at row
    `10000 · (block index) + p`, column `q`. -/
theorem read_out (X : S100000x128.Idx → EReal) (t : Fin cfg0.N) (p : Fin 10000) (q : Fin 128) (r : Fin 100000)
    (hr : r.val = win0_3.index t (0 : Fin 2) * 10000 + p.val) :
    ((cfg0.win 3).blk t).view.read (Elt Ideal) X (ix2 p q) = X (ix2 r q) := by
  rw [View.read_apply, out_index t p q r hr]
  rfl

/-- WHAT POINT `t` WRITES BACK is block `t` of the result. -/
theorem flushed_eq (c : Dev nD) (t : Fin cfg0.N) :
    (dats m 0 c).flushed 3 t = ((cfg0.win 3).blk t).view.read (Elt Ideal) (result m c) := by
  rw [flushed_stored]
  obtain ⟨-, -, -, -, -, -, -, e3le⟩ := idx_facts t
  funext y
  obtain ⟨p, q, rfl⟩ := block_index t y
  have hr : win0_3.index t (0 : Fin 2) * 10000 + p.val < 100000 := by have := p.isLt; omega
  exact (written_back (k0_pay1 (iblk m c 0 t) (iblk m c 1 t) (iblk m c 2 t)) t p q).trans
    ((stored_dense (iblk m c 0 t) (iblk m c 1 t) (iblk m c 2 t) (Entry.agg m c) (m ((c : Thread nD τ).loc main_arg9)) (m ((c : Thread nD τ).loc main_arg10)) p q
        ⟨win0_3.index t (0 : Fin 2) * 10000 + p.val, hr⟩
        (fun k => msg_block m c t p k _ rfl) (fun k => weight_block m c t k q) (bias_block m c t q)).trans
      (read_out (result m c) t p q ⟨win0_3.index t (0 : Fin 2) * 10000 + p.val, hr⟩ rfl).symm)

/-! ## The blocks cover the array -/

/-- An index of the array is in point `t`'s block iff each coordinate is in the block's range on its axis. -/
theorem mem_blk (t : Fin cfg0.N) (i : S100000x128.Idx) :
    i ∈ ((cfg0.win 3).blk t).view.set ↔ ∀ a : Fin 2, win0_3.index t a * S10000x128.size a ≤ (i a).val ∧ (i a).val < win0_3.index t a * S10000x128.size a + S10000x128.size a := by
  show i ∈ ((View.whole main_v41).slice (win0_3.rect t)).set ↔ _
  rw [View.set_slice_whole, Rect.mem_set_unit]
  exact Iff.rfl

/-- Row `r` lies in the block of the point whose block index is `r / 10000`. -/
theorem cover (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ := idx_onto ⟨(i 0).val / 10000, by omega⟩
  have q0 : win0_3.index t (0 : Fin 2) = (i 0).val / 10000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 10000 ≤ (i 0).val ∧ (i 0).val < win0_3.index t (0 : Fin 2) * 10000 + 10000; omega
  | ⟨1, _⟩ => show win0_3.index t (1 : Fin 2) * 128 ≤ (i 1).val ∧ (i 1).val < win0_3.index t (1 : Fin 2) * 128 + 128; omega

/-- THE ARRAY after the run is the result. -/
theorem final (c : Dev nD) : (dats m 0 c).arrAt 3 cfg0.N = result m c :=
  (dats m 0 c).arrAt_eq_of_cover 3 (result m c) (fun t _ => flushed_eq m c t) cover

/-! ## The run, read -/

/-- Every weakly fair execution of the kernel's program ends with the result array at the dense layer of the
    aggregated messages and the arguments unchanged. -/
theorem run : θ_run defs (onTc (τ := τ) (main (F := Ideal))) ⟨m, fun _ => 0, ρ⟩ fun r => ∀ c : Dev nD,
      r.2.mem ((c : Thread nD τ).loc main_v41) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final m c), (h c).2⟩) (Value.run_blocks m ρ)

end Cert.KernelIdeal.DenseValue

end
-- ==== Proof.lean ====
/-
  The certificate of a graph message-passing layer: the kernel's tiled dense projection against `agg @ Wᵀ + b`.

  Both programs first build the aggregated messages `agg`: three embedding rows gathered and added per node, gathered
  again along the edges, scaled by the edge values and scatter-added into the nodes. The kernel's program changes
  the float format three times on the way; on the extended reals those changes are the identity, so its `agg` is the
  reference's (Proof/PrefixChain.lean, Proof/KernelEntryMessages.lean), carried as one opaque array on both sides.

  The reference then forms `dot_general(agg, Wᵀ) + b`, which at (p, q) is `(∑ k, agg (p, k) · W (q, k)) + b q`
  (Proof/ReferenceDense.lean). The kernel runs a grid of ten points; point `t` multiplies rows
  `10000 t … 10000 t + 9999` of `agg` by the whole transposed weight into a zero accumulator, adds the bias row, and
  writes those rows of the result (Proof/KernelPayload.lean); the ten row blocks cover the array
  (Proof/KernelDense.lean). The two sums have the same terms in the same order, so they are equal as extended
  reals with no appeal to finiteness of the inputs: the precondition is never opened.

  The three frames are the generated ones (the reference's is its generated run with the result dropped), and the
  idealization rewrote nothing, so `preserves` is `True`.
-/
import proofs.«176500_j73452530696646_2_alg».proof.Defs
import proofs.«176500_j73452530696646_2_alg».proof.Proof.Gen.Kernel
import proofs.«176500_j73452530696646_2_alg».proof.Proof.Gen.Kernel.Skeleton
import proofs.«176500_j73452530696646_2_alg».proof.Proof.Gen.Kernel.Launch
import proofs.«176500_j73452530696646_2_alg».proof.Proof.Gen.Kernel.Points
import proofs.«176500_j73452530696646_2_alg».proof.Proof.Gen.Kernel.Frame
import proofs.«176500_j73452530696646_2_alg».proof.Proof.Gen.KernelIdeal
import proofs.«176500_j73452530696646_2_alg».proof.Proof.Gen.KernelIdeal.Skeleton
import proofs.«176500_j73452530696646_2_alg».proof.Proof.Gen.KernelIdeal.Launch
import proofs.«176500_j73452530696646_2_alg».proof.Proof.Gen.KernelIdeal.Points
import proofs.«176500_j73452530696646_2_alg».proof.Proof.Gen.KernelIdeal.Frame
import proofs.«176500_j73452530696646_2_alg».proof.Proof.Gen.ReferenceIdeal
import proofs.«176500_j73452530696646_2_alg».proof.Proof.Gen.KernelIdeal.Value
import proofs.«176500_j73452530696646_2_alg».proof.Proof.Gen.ReferenceIdeal.Run
import proofs.«176500_j73452530696646_2_alg».proof.Proof.Gen.ReferenceIdeal.Read
import proofs.«176500_j73452530696646_2_alg».proof.Proof.Gen.Pre_finite_inputs
import proofs.«176500_j73452530696646_2_alg».proof.Proof.DenseSpec
import proofs.«176500_j73452530696646_2_alg».proof.Proof.ReferenceDense
import proofs.«176500_j73452530696646_2_alg».proof.Proof.KernelDense
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no region: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the result at the dense layer of the
    aggregated messages of the kernel's launch arrays: the kernel by its run read block by block, the reference
    by its run read one stage at a time, the agreement of the arguments rewritten. -/
theorem algebraic : Cert.algebraic_KernelIdeal_ReferenceIdeal := by
  intro m ρ m' ρ' _ hagree
  refine ⟨fun c => Cert.KernelIdeal.DenseValue.result m c, Cert.KernelIdeal.DenseValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10⟩ := hagree c
  rw [Cert.ReferenceIdeal.Read.val_main_v40_eq, Cert.ReferenceIdeal.Dense.result_eq, h0, h1, h2, h3, h4, h5, h6, h7, h8, h9, h10]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
